-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v4)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v4) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v8) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4x2048x768 : Shape := ⟨3, ![4, 2048, 768]⟩
abbrev S3072x768 : Shape := ⟨2, ![3072, 768]⟩
abbrev S3072 : Shape := ⟨1, ![3072]⟩
abbrev S768x3072 : Shape := ⟨2, ![768, 3072]⟩
abbrev S768 : Shape := ⟨1, ![768]⟩
abbrev S_ : Shape := ⟨0, ![]⟩

class Facts : Prop where
  bcast_S_S4x2048x768 : S_.BroadcastsInDim S4x2048x768 (![] : Fin 0 → Fin S4x2048x768.rank)
  reducesTo_S4x2048x768_S_d0_1_2 : S4x2048x768.ReducesTo [0, 1, 2] S_
  h_S_ : 0 < S_.numel
  bcast_S_S3072x768 : S_.BroadcastsInDim S3072x768 (![] : Fin 0 → Fin S3072x768.rank)
  reducesTo_S3072x768_S_d0_1 : S3072x768.ReducesTo [0, 1] S_
  bcast_S_S3072 : S_.BroadcastsInDim S3072 (![] : Fin 0 → Fin S3072.rank)
  reducesTo_S3072_S_d0 : S3072.ReducesTo [0] S_
  bcast_S_S768x3072 : S_.BroadcastsInDim S768x3072 (![] : Fin 0 → Fin S768x3072.rank)
  reducesTo_S768x3072_S_d0_1 : S768x3072.ReducesTo [0, 1] S_
  bcast_S_S768 : S_.BroadcastsInDim S768 (![] : Fin 0 → Fin S768.rank)
  reducesTo_S768_S_d0 : S768.ReducesTo [0] S_

variable [Facts]

def fn_part1 {F : FTy → Type} [FloatOps F] (main_arg4 : FVec F S768 .f32) (main_v13 : IVec S_ 1) (main_v16 : IVec S768x3072 1) : IVec S_ 1 :=
  let main_c_5 : IVec S_ 1 := constantI S_ 1 1#1
  let main_v17 : IVec S_ 1 := (fun x v => Host.reduce IntOp.andi x v reducesTo_S768x3072_S_d0_1 h_S_) main_v16 main_c_5
  let main_v18 : IVec S_ 1 := andi main_v13 main_v17
  let main_v19 : FVec F S768 .f32 := Host.absf main_arg4
  let main_cst_6 : FVec F S_ .f32 := constant S_ .f32 0x7F800000#32
  let main_v20 : FVec F S768 .f32 := broadcastInDim S768 ![] bcast_S_S768 main_cst_6
  let main_v21 : IVec S768 1 := cmpf .olt main_v19 main_v20
  let main_c_7 : IVec S_ 1 := constantI S_ 1 1#1
  let main_v22 : IVec S_ 1 := (fun x v => Host.reduce IntOp.andi x v reducesTo_S768_S_d0 h_S_) main_v21 main_c_7
  let main_v23 : IVec S_ 1 := andi main_v18 main_v22
  main_v23

def fn {F : FTy → Type} [FloatOps F] (main_arg0 : FVec F S4x2048x768 .f32) (main_arg1 : FVec F S3072x768 .f32) (main_arg2 : FVec F S3072 .f32) (main_arg3 : FVec F S768x3072 .f32) (main_arg4 : FVec F S768 .f32) : IVec S_ 1 :=
  let main_v0 : FVec F S4x2048x768 .f32 := Host.absf main_arg0
  let main_cst : FVec F S_ .f32 := constant S_ .f32 0x7F800000#32
  let main_v1 : FVec F S4x2048x768 .f32 := broadcastInDim S4x2048x768 ![] bcast_S_S4x2048x768 main_cst
  let main_v2 : IVec S4x2048x768 1 := cmpf .olt main_v0 main_v1
  let main_c : IVec S_ 1 := constantI S_ 1 1#1
  let main_v3 : IVec S_ 1 := (fun x v => Host.reduce IntOp.andi x v reducesTo_S4x2048x768_S_d0_1_2 h_S_) main_v2 main_c
  let main_v4 : FVec F S3072x768 .f32 := Host.absf main_arg1
  let main_cst_0 : FVec F S_ .f32 := constant S_ .f32 0x7F800000#32
  let main_v5 : FVec F S3072x768 .f32 := broadcastInDim S3072x768 ![] bcast_S_S3072x768 main_cst_0
  let main_v6 : IVec S3072x768 1 := cmpf .olt main_v4 main_v5
  let main_c_1 : IVec S_ 1 := constantI S_ 1 1#1
  let main_v7 : IVec S_ 1 := (fun x v => Host.reduce IntOp.andi x v reducesTo_S3072x768_S_d0_1 h_S_) main_v6 main_c_1
  let main_v8 : IVec S_ 1 := andi main_v3 main_v7
  let main_v9 : FVec F S3072 .f32 := Host.absf main_arg2
  let main_cst_2 : FVec F S_ .f32 := constant S_ .f32 0x7F800000#32
  let main_v10 : FVec F S3072 .f32 := broadcastInDim S3072 ![] bcast_S_S3072 main_cst_2
  let main_v11 : IVec S3072 1 := cmpf .olt main_v9 main_v10
  let main_c_3 : IVec S_ 1 := constantI S_ 1 1#1
  let main_v12 : IVec S_ 1 := (fun x v => Host.reduce IntOp.andi x v reducesTo_S3072_S_d0 h_S_) main_v11 main_c_3
  let main_v13 : IVec S_ 1 := andi main_v8 main_v12
  let main_v14 : FVec F S768x3072 .f32 := Host.absf main_arg3
  let main_cst_4 : FVec F S_ .f32 := constant S_ .f32 0x7F800000#32
  let main_v15 : FVec F S768x3072 .f32 := broadcastInDim S768x3072 ![] bcast_S_S768x3072 main_cst_4
  let main_v16 : IVec S768x3072 1 := cmpf .olt main_v14 main_v15
  fn_part1 (F := F) main_arg4 main_v13 main_v16
-- ==== Kernel.lean ====
abbrev S4x2048x768 : Shape := ⟨3, ![4, 2048, 768]⟩
abbrev S3072x768 : Shape := ⟨2, ![3072, 768]⟩
abbrev S3072 : Shape := ⟨1, ![3072]⟩
abbrev S768x3072 : Shape := ⟨2, ![768, 3072]⟩
abbrev S768 : Shape := ⟨1, ![768]⟩
abbrev S8192x768 : Shape := ⟨2, ![8192, 768]⟩
abbrev S1x3072 : Shape := ⟨2, ![1, 3072]⟩
abbrev S1x768 : Shape := ⟨2, ![1, 768]⟩
abbrev S2048x768 : Shape := ⟨2, ![2048, 768]⟩
abbrev S2048x3072 : Shape := ⟨2, ![2048, 3072]⟩

abbrev nBuf : Space → Nat
  | .hbm => 10
  | .vmem => 8
  | .smem => 0
  | _ => 0

abbrev bufTy : (tb : Table) → Fin (tcTables nBuf tb) → BufTy
  | .hbm, ⟨0, _⟩ => ⟨S4x2048x768, .f32⟩
  | .hbm, ⟨1, _⟩ => ⟨S3072x768, .f32⟩
  | .hbm, ⟨2, _⟩ => ⟨S3072, .f32⟩
  | .hbm, ⟨3, _⟩ => ⟨S768x3072, .f32⟩
  | .hbm, ⟨4, _⟩ => ⟨S768, .f32⟩
  | .hbm, ⟨5, _⟩ => ⟨S8192x768, .f32⟩
  | .hbm, ⟨6, _⟩ => ⟨S1x3072, .f32⟩
  | .hbm, ⟨7, _⟩ => ⟨S1x768, .f32⟩
  | .hbm, ⟨8, _⟩ => ⟨S8192x768, .f32⟩
  | .hbm, ⟨9, _⟩ => ⟨S4x2048x768, .f32⟩
  | .local _ .vmem, ⟨0, _⟩ => ⟨S2048x768, .f32⟩
  | .local _ .vmem, ⟨1, _⟩ => ⟨S2048x768, .f32⟩
  | .local _ .vmem, ⟨2, _⟩ => ⟨S3072x768, .f32⟩
  | .local _ .vmem, ⟨3, _⟩ => ⟨S1x3072, .f32⟩
  | .local _ .vmem, ⟨4, _⟩ => ⟨S768x3072, .f32⟩
  | .local _ .vmem, ⟨5, _⟩ => ⟨S1x768, .f32⟩
  | .local _ .vmem, ⟨6, _⟩ => ⟨S2048x768, .f32⟩
  | .local _ .vmem, ⟨7, _⟩ => ⟨S2048x768, .f32⟩
  | _, _ => ⟨S4x2048x768, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2048x768 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S3072x768 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x3072 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S768x3072 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x768 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S2048x768 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

class Facts₀ : Prop where
  shapeCasts_S4x2048x768_S8192x768 : S4x2048x768.ShapeCasts S8192x768
  shapeCasts_S3072_S1x3072 : S3072.ShapeCasts S1x3072
  shapeCasts_S768_S1x768 : S768.ShapeCasts S1x768
  inb_S2048x768_S2048x768_0_0 : ∀ a, (![0, 0] : Fin 2 → Nat) a + S2048x768.size a ≤ S2048x768.size a
  h_S2048x768 : 0 < S2048x768.numel
  shapeCasts_S2048x768_S2048x768 : S2048x768.ShapeCasts S2048x768
  bitsLt_bf16_f32 : FTy.bits .bf16 < FTy.bits .f32
  inb_S3072x768_S3072x768_0_0 : ∀ a, (![0, 0] : Fin 2 → Nat) a + S3072x768.size a ≤ S3072x768.size a
  h_S3072x768 : 0 < S3072x768.numel
  inb_S1x3072_S1x3072_0_0 : ∀ a, (![0, 0] : Fin 2 → Nat) a + S1x3072.size a ≤ S1x3072.size a
  h_S1x3072 : 0 < S1x3072.numel
  shapeCasts_S1x3072_S1x3072 : S1x3072.ShapeCasts S1x3072
  broadcasts_S1x3072_S2048x3072 : S1x3072.Broadcasts S2048x3072
  inb_S768x3072_S768x3072_0_0 : ∀ a, (![0, 0] : Fin 2 → Nat) a + S768x3072.size a ≤ S768x3072.size a
  h_S768x3072 : 0 < S768x3072.numel
  inb_S1x768_S1x768_0_0 : ∀ a, (![0, 0] : Fin 2 → Nat) a + S1x768.size a ≤ S1x768.size a
  h_S1x768 : 0 < S1x768.numel
  shapeCasts_S1x768_S1x768 : S1x768.ShapeCasts S1x768
  broadcasts_S1x768_S2048x768 : S1x768.Broadcasts S2048x768
  shapeCasts_S8192x768_S4x2048x768 : S8192x768.ShapeCasts S4x2048x768
  dot_S2048x768_S3072x768_S2048x3072_1_1_0_0_n_n_wf : DotDims.WF S2048x768 S3072x768 S2048x3072 [1] [1] [0] [0] [] []
  dot_S2048x3072_S768x3072_S2048x768_1_1_0_0_n_n_wf : DotDims.WF S2048x3072 S768x3072 S2048x768 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2048x768.size a ≤ S8192x768.size a
  hwx0_0 : ∀ i : grid0.Coords, EltTy.bits .f32 = 32 ∨ (Rect.block (s := S8192x768) S2048x768.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S3072x768.size a ≤ S3072x768.size a
  hwx0_1 : ∀ i : grid0.Coords, EltTy.bits .f32 = 32 ∨ (Rect.block (s := S3072x768) S3072x768.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x3072.size a ≤ S1x3072.size a
  hwx0_2 : ∀ i : grid0.Coords, EltTy.bits .f32 = 32 ∨ (Rect.block (s := S1x3072) S1x3072.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S768x3072.size a ≤ S768x3072.size a
  hwx0_3 : ∀ i : grid0.Coords, EltTy.bits .f32 = 32 ∨ (Rect.block (s := S768x3072) S768x3072.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x768.size a ≤ S1x768.size a
  hwx0_4 : ∀ i : grid0.Coords, EltTy.bits .f32 = 32 ∨ (Rect.block (s := S1x768) S1x768.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S2048x768.size a ≤ S8192x768.size a
  hwx0_5 : ∀ i : grid0.Coords, EltTy.bits .f32 = 32 ∨ (Rect.block (s := S8192x768) S2048x768.size (cc0_transform_5 i) (hinb0_5 i)).WholeWords (EltTy.packing .f32)

variable [Facts₀]

def dot_S2048x768_S3072x768_S2048x3072_1_1_0_0_n_n : DotDims S2048x768 S3072x768 S2048x3072 where
  lhsContracting := [1]
  rhsContracting := [1]
  lhsNonContracting := [0]
  rhsNonContracting := [0]
  lhsBatch := []
  rhsBatch := []
  wf := dot_S2048x768_S3072x768_S2048x3072_1_1_0_0_n_n_wf
def dot_S2048x3072_S768x3072_S2048x768_1_1_0_0_n_n : DotDims S2048x3072 S768x3072 S2048x768 where
  lhsContracting := [1]
  rhsContracting := [1]
  lhsNonContracting := [0]
  rhsNonContracting := [0]
  lhsBatch := []
  rhsBatch := []
  wf := dot_S2048x3072_S768x3072_S2048x768_1_1_0_0_n_n_wf

abbrev win0_0 : Pipeline.Window sig grid0 :=
  Pipeline.Window.ofSpec (Memref.whole main_v0) S2048x768.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S3072x768.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v1) S1x3072.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg3) S768x3072.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v2) S1x768.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v3) S2048x768.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

class Facts : Prop extends Facts₀ where

variable [Facts]
-- ==== ReferenceIdeal.lean ====
abbrev S4x2048x768 : Shape := ⟨3, ![4, 2048, 768]⟩
abbrev S3072x768 : Shape := ⟨2, ![3072, 768]⟩
abbrev S3072 : Shape := ⟨1, ![3072]⟩
abbrev S768x3072 : Shape := ⟨2, ![768, 3072]⟩
abbrev S768 : Shape := ⟨1, ![768]⟩
abbrev S4x2048x3072 : Shape := ⟨3, ![4, 2048, 3072]⟩
abbrev S1x1x3072 : Shape := ⟨3, ![1, 1, 3072]⟩
abbrev S_ : Shape := ⟨0, ![]⟩
abbrev S1x1x768 : Shape := ⟨3, ![1, 1, 768]⟩

abbrev nBuf : Space → Nat
  | .hbm => 16
  | .vmem => 0
  | .smem => 0
  | _ => 0

abbrev bufTy : (tb : Table) → Fin (tcTables nBuf tb) → BufTy
  | .hbm, ⟨0, _⟩ => ⟨S4x2048x768, .f32⟩
  | .hbm, ⟨1, _⟩ => ⟨S3072x768, .f32⟩
  | .hbm, ⟨2, _⟩ => ⟨S3072, .f32⟩
  | .hbm, ⟨3, _⟩ => ⟨S768x3072, .f32⟩
  | .hbm, ⟨4, _⟩ => ⟨S768, .f32⟩
  | .hbm, ⟨5, _⟩ => ⟨S4x2048x3072, .f32⟩
  | .hbm, ⟨6, _⟩ => ⟨S1x1x3072, .f32⟩
  | .hbm, ⟨7, _⟩ => ⟨S4x2048x3072, .f32⟩
  | .hbm, ⟨8, _⟩ => ⟨S4x2048x3072, .f32⟩
  | .hbm, ⟨9, _⟩ => ⟨S_, .f32⟩
  | .hbm, ⟨10, _⟩ => ⟨S4x2048x3072, .f32⟩
  | .hbm, ⟨11, _⟩ => ⟨S4x2048x3072, .f32⟩
  | .hbm, ⟨12, _⟩ => ⟨S4x2048x768, .f32⟩
  | .hbm, ⟨13, _⟩ => ⟨S1x1x768, .f32⟩
  | .hbm, ⟨14, _⟩ => ⟨S4x2048x768, .f32⟩
  | .hbm, ⟨15, _⟩ => ⟨S4x2048x768, .f32⟩
  | _, _ => ⟨S4x2048x768, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_call0_cst : Ref sig .tc := ⟨.hbm, 9, rfl⟩
abbrev main_call0_v0 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩

abbrev nD : Nat := 1
abbrev τ : Topo := Topo.v7x

variable {F : FTy → Type} [FloatOps F]

class Facts₀ : Prop where
  bcast_S3072_S1x1x3072_2 : S3072.BroadcastsInDim S1x1x3072 (![2] : Fin 1 → Fin S1x1x3072.rank)
  bcast_S1x1x3072_S4x2048x3072_0_1_2 : S1x1x3072.BroadcastsInDim S4x2048x3072 (![0, 1, 2] : Fin 3 → Fin S4x2048x3072.rank)
  bcast_S_S4x2048x3072 : S_.BroadcastsInDim S4x2048x3072 (![] : Fin 0 → Fin S4x2048x3072.rank)
  bcast_S768_S1x1x768_2 : S768.BroadcastsInDim S1x1x768 (![2] : Fin 1 → Fin S1x1x768.rank)
  bcast_S1x1x768_S4x2048x768_0_1_2 : S1x1x768.BroadcastsInDim S4x2048x768 (![0, 1, 2] : Fin 3 → Fin S4x2048x768.rank)
  dot_S4x2048x768_S3072x768_S4x2048x3072_2_1_01_0_n_n_wf : DotDims.WF S4x2048x768 S3072x768 S4x2048x3072 [2] [1] [0, 1] [0] [] []
  dot_S4x2048x3072_S768x3072_S4x2048x768_2_1_01_0_n_n_wf : DotDims.WF S4x2048x3072 S768x3072 S4x2048x768 [2] [1] [0, 1] [0] [] []

variable [Facts₀]

def dot_S4x2048x768_S3072x768_S4x2048x3072_2_1_01_0_n_n : DotDims S4x2048x768 S3072x768 S4x2048x3072 where
  lhsContracting := [2]
  rhsContracting := [1]
  lhsNonContracting := [0, 1]
  rhsNonContracting := [0]
  lhsBatch := []
  rhsBatch := []
  wf := dot_S4x2048x768_S3072x768_S4x2048x3072_2_1_01_0_n_n_wf
def dot_S4x2048x3072_S768x3072_S4x2048x768_2_1_01_0_n_n : DotDims S4x2048x3072 S768x3072 S4x2048x768 where
  lhsContracting := [2]
  rhsContracting := [1]
  lhsNonContracting := [0, 1]
  rhsNonContracting := [0]
  lhsBatch := []
  rhsBatch := []
  wf := dot_S4x2048x3072_S768x3072_S4x2048x768_2_1_01_0_n_n_wf

class Facts : Prop extends Facts₀ where

variable [Facts]
-- ==== Proof.Spec.lean ====
/-
  The feed-forward layer, entry by entry, over the extended reals.

  For one token (a row of 768 features) the hidden unit f is the maximum of zero and the row's inner product with row f
  of the first weight matrix plus the first bias; output feature e is the inner product of the 3072 hidden units with
  row e of the second weight matrix plus the second bias.  Both programs compute exactly this number at every
  (batch, position, feature); they differ only in how the 8192 tokens are laid out (a [4, 2048, 768] array, or an
  [8192, 768] matrix cut into four blocks of 2048 rows) and in how the biases are spread.  So the token's row and the
  two biases enter here as plain functions of a feature number, and the layouts are dealt with where they occur.
-/
import Idealize.ShloMosaic.PureOps.Ideal
import Idealize.ShloMosaic.Lib.ValueIdx

noncomputable section

namespace Cert.Ffn

open Idealize.ShloMosaic Idealize.ShloMosaic.ValueIdx

/-- The value of the f32 word of zero; the same word stands on both sides, so it is never evaluated. -/
abbrev zero : EReal := Ideal.ofBits .f32 0x00000000#32

/-- Hidden unit `f` of a token with feature row `xrow`: `max (Σ_d xrow d · wi (f, d) + bi f) 0`. -/
def hid (xrow : Fin 768 → EReal) (wi : (⟨2, ![3072, 768]⟩ : Shape).Idx → EReal) (bi : Fin 3072 → EReal) (f : Fin 3072) : EReal :=
  max ((∑ d : Fin 768, xrow d * wi (ix2 f d)) + bi f) zero

/-- Output feature `e` of that token: `Σ_f hid f · wo (e, f) + bo e`. -/
def out (xrow : Fin 768 → EReal) (wi : (⟨2, ![3072, 768]⟩ : Shape).Idx → EReal) (bi : Fin 3072 → EReal)
    (wo : (⟨2, ![768, 3072]⟩ : Shape).Idx → EReal) (bo : Fin 768 → EReal) (e : Fin 768) : EReal :=
  (∑ f : Fin 3072, hid xrow wi bi f * wo (ix2 e f)) + bo e

/-- The layer over a [4, 2048, 768] array of tokens, with bias vectors: entry (b, s, e) is output feature `e` of
    token (b, s). -/
def G (x : (⟨3, ![4, 2048, 768]⟩ : Shape).Idx → EReal) (wi : (⟨2, ![3072, 768]⟩ : Shape).Idx → EReal)
    (bi : (⟨1, ![3072]⟩ : Shape).Idx → EReal) (wo : (⟨2, ![768, 3072]⟩ : Shape).Idx → EReal)
    (bo : (⟨1, ![768]⟩ : Shape).Idx → EReal) : (⟨3, ![4, 2048, 768]⟩ : Shape).Idx → EReal :=
  fun i => out (fun d => x (ix3 (n0 := 4) (n1 := 2048) (n2 := 768) (i 0) (i 1) d)) wi (fun f => bi (ix1 f)) wo
    (fun e => bo (ix1 e)) (i 2)

/-- The same layer over the tokens as an [8192, 768] matrix, with the biases as one-row arrays: entry (r, e) is output
    feature `e` of token `r`. -/
def G2 (x : (⟨2, ![8192, 768]⟩ : Shape).Idx → EReal) (wi : (⟨2, ![3072, 768]⟩ : Shape).Idx → EReal)
    (bi : (⟨2, ![1, 3072]⟩ : Shape).Idx → EReal) (wo : (⟨2, ![768, 3072]⟩ : Shape).Idx → EReal)
    (bo : (⟨2, ![1, 768]⟩ : Shape).Idx → EReal) : (⟨2, ![8192, 768]⟩ : Shape).Idx → EReal :=
  fun j => out (fun d => x (ix2 (n0 := 8192) (n1 := 768) (j 0) d)) wi (fun f => bi (ix2 (0 : Fin 1) f)) wo
    (fun e => bo (ix2 (0 : Fin 1) e)) (j 1)

end Cert.Ffn

end
-- ==== Proof.RefSide.lean ====
/-
  The reference computes the layer: its result array, read one operation at a time at an entry (b, s, e), is the
  first contraction over the 768 input features against row f of the first weight matrix, plus the first bias spread
  over all tokens, clamped below at zero, contracted over the 3072 hidden units against row e of the second weight
  matrix, plus the second bias spread over all tokens — which is `Ffn.G` once the composed index functions are seen to
  be the coordinates they name.
-/
import proofs.«129866_g67216238182688_cont_9to1_m_788_14_alg».proof.Proof.Gen.ReferenceIdeal.Read
import proofs.«129866_g67216238182688_cont_9to1_m_788_14_alg».proof.Proof.Spec

noncomputable section

namespace Cert.ReferenceIdeal.RefValue

open Cert.ReferenceIdeal Cert.ReferenceIdeal.Read Idealize.ShloMosaic Idealize.ShloMosaic.ValueIdx

/-- The reference's result is the layer of its five arguments. -/
theorem result_eq (x0 : (⟨S4x2048x768, .f32⟩ : BufTy).Contents (Elt Ideal)) (x1 : (⟨S3072x768, .f32⟩ : BufTy).Contents (Elt Ideal))
    (x2 : (⟨S3072, .f32⟩ : BufTy).Contents (Elt Ideal)) (x3 : (⟨S768x3072, .f32⟩ : BufTy).Contents (Elt Ideal))
    (x4 : (⟨S768, .f32⟩ : BufTy).Contents (Elt Ideal)) :
    val_main_v8 (F := Ideal) x0 x1 x2 x3 x4 = Cert.Ffn.G x0 x1 x2 x3 x4 := by
  funext i
  -- the token (b, s) and the feature the composed index functions name
  have e0 : ∀ (k : Fin 3072) (d : Fin 768), lidx_main_v0 (lidx_main_v5 i k) d = ix3 (n0 := 4) (n1 := 2048) (n2 := 768) (i 0) (i 1) d :=
    fun k d => funext fun a => Fin.ext (by match a with | ⟨0, _⟩ => rfl | ⟨1, _⟩ => rfl | ⟨2, _⟩ => rfl)
  have e1 : ∀ (k : Fin 3072) (d : Fin 768), ridx_main_v0 (lidx_main_v5 i k) d = ix2 (n0 := 3072) (n1 := 768) k d :=
    fun k d => funext fun a => Fin.ext (by match a with | ⟨0, _⟩ => rfl | ⟨1, _⟩ => rfl)
  have e2 : ∀ k : Fin 3072, idx_main_v1 (idx_main_v2 (lidx_main_v5 i k)) = ix1 (n := 3072) k :=
    fun k => funext fun a => Fin.ext (by match a with | ⟨0, _⟩ => rfl)
  have e3 : ∀ k : Fin 3072, ridx_main_v5 i k = ix2 (n0 := 768) (n1 := 3072) (i 2) k :=
    fun k => funext fun a => Fin.ext (by match a with | ⟨0, _⟩ => rfl | ⟨1, _⟩ => rfl)
  have e4 : idx_main_v6 (idx_main_v7 i) = ix1 (n := 768) (i 2) :=
    funext fun a => Fin.ext (by match a with | ⟨0, _⟩ => rfl)
  rw [val_main_v8_apply, val_main_v5_apply, val_main_v7_apply, val_main_v6_apply]
  simp only [val_main_v4_apply, val_main_v3_apply, val_main_v0_apply, val_main_v2_apply, val_main_v1_apply,
    val_main_call0_v0_apply, val_main_call0_cst_apply, Ideal.addf_def, Ideal.maximumf_def, Ideal.ofBits_def, e0, e1, e2, e3, e4]
  rfl

end Cert.ReferenceIdeal.RefValue

end
-- ==== Proof.LibRowsDot.lean ====
/-
  A product of a matrix with the transpose of another, read at an entry.

  A contraction whose dimension numbers say "the second axis of an [A, K] operand against the second axis of a [B, K]
  operand, no batch axis, result [A, B]" reads its left operand at (row of the result, k) and its right operand at
  (column of the result, k), `k` ranging over the one contracted axis.  So the sum over the contraction index of the
  operands' products, at result entry (p, c), is `Σ_{k < K} l (p, k) · r (c, k)`: row p of the left operand against
  row c of the right one; a `tpu.matmul` into the zero splat is exactly that sum at the ideal values.  Generic in A, K, B,
  in the record and in the operands' float formats: the hypotheses are the record's six lists.
-/
import Idealize.ShloMosaic.PureOps.Ideal.Laws
import Idealize.ShloMosaic.Lib.ValueIdx

noncomputable section

namespace Cert.LibRowsDot

open Idealize.ShloMosaic Idealize.ShloMosaic.ValueIdx

/-- The dimension numbers of a product of rows `[A, K] × [B, K] → [A, B]`. -/
structure Rows {A K B : Nat} (D : DotDims ⟨2, ![A, K]⟩ ⟨2, ![B, K]⟩ ⟨2, ![A, B]⟩) : Prop where
  lc : D.lhsContracting = [1]
  rc : D.rhsContracting = [1]
  ln : D.lhsNonContracting = [0]
  rn : D.rhsNonContracting = [0]
  lb : D.lhsBatch = []
  rb : D.rhsBatch = []

variable {A K B : Nat} {D : DotDims ⟨2, ![A, K]⟩ ⟨2, ![B, K]⟩ ⟨2, ![A, B]⟩}

/-- One axis is contracted. -/
theorem Rows.rank (h : Rows D) : D.contr.rank = 1 := by rw [D.rank_contr, h.lc]; rfl

/-- Its extent is `K`. -/
theorem Rows.size (h : Rows D) : D.contr.size ⟨0, by rw [h.rank]; exact Nat.one_pos⟩ = K := by
  rw [D.size_contr 0 (by rw [h.lc]; exact Nat.one_pos)]
  simp only [h.lc, List.getElem_cons_zero]
  rfl

/-- The left operand is read at the result's row … -/
theorem Rows.lhs0 (h : Rows D) (j : (⟨2, ![A, B]⟩ : Shape).Idx) (q : D.contr.Idx) : (D.lhsIdx j q 0).val = (j 0).val := by
  unfold DotDims.lhsIdx
  rw [dif_neg (by rw [h.lb]; exact List.not_mem_nil), dif_pos (by rw [h.ln]; exact List.mem_singleton.mpr rfl)]
  simp only [Fin.val_cast]
  have key : ∀ (a b : Nat) (ha : a < (⟨2, ![A, B]⟩ : Shape).rank) (hb : b < (⟨2, ![A, B]⟩ : Shape).rank), a = b →
      (j ⟨a, ha⟩).val = (j ⟨b, hb⟩).val := fun a b ha hb e => by subst e; rfl
  exact key _ _ _ _ (by simp [h.lb, h.ln])

/-- … and the contraction position, -/
theorem Rows.lhs1 (h : Rows D) (j : (⟨2, ![A, B]⟩ : Shape).Idx) (q : D.contr.Idx) :
    (D.lhsIdx j q 1).val = (q ⟨0, by rw [h.rank]; exact Nat.one_pos⟩).val :=
  D.lhsIdx_val_of_single h.lc j q

/-- the right operand at the result's column, which is ITS row … -/
theorem Rows.rhs0 (h : Rows D) (j : (⟨2, ![A, B]⟩ : Shape).Idx) (q : D.contr.Idx) : (D.rhsIdx j q 0).val = (j 1).val := by
  unfold DotDims.rhsIdx
  rw [dif_neg (by rw [h.rb]; exact List.not_mem_nil), dif_pos (by rw [h.rn]; exact List.mem_singleton.mpr rfl)]
  simp only [Fin.val_cast]
  have key : ∀ (a b : Nat) (ha : a < (⟨2, ![A, B]⟩ : Shape).rank) (hb : b < (⟨2, ![A, B]⟩ : Shape).rank), a = b →
      (j ⟨a, ha⟩).val = (j ⟨b, hb⟩).val := fun a b ha hb e => by subst e; rfl
  exact key _ _ _ _ (by simp [h.lb, h.ln, h.rn])

/-- … and the contraction position. -/
theorem Rows.rhs1 (h : Rows D) (j : (⟨2, ![A, B]⟩ : Shape).Idx) (q : D.contr.Idx) :
    (D.rhsIdx j q 1).val = (q ⟨0, by rw [h.rank]; exact Nat.one_pos⟩).val :=
  D.rhsIdx_val_of_single h.rc j q

/-- The contraction sum at result entry `(p, c)` is `Σ_k l (p, k) · r (c, k)`. -/
theorem Rows.sum_eq (h : Rows D) (l : (⟨2, ![A, K]⟩ : Shape).Idx → EReal) (r : (⟨2, ![B, K]⟩ : Shape).Idx → EReal)
    (p : Fin A) (c : Fin B) :
    ∑ q : D.contr.Idx, l (D.lhsIdx (ix2 p c) q) * r (D.rhsIdx (ix2 p c) q) = ∑ k : Fin K, l (ix2 p k) * r (ix2 c k) := by
  rw [← Equiv.sum_comp (contrEquiv1 D K h.rank h.size).symm]
  refine Finset.sum_congr rfl fun k _ => ?_
  have hk := contrEquiv1_symm_val D K h.rank h.size k
  have el : D.lhsIdx (ix2 p c) ((contrEquiv1 D K h.rank h.size).symm k) = ix2 p k := funext fun a => Fin.ext (by
    match a with
    | ⟨0, _⟩ => exact h.lhs0 _ _
    | ⟨1, _⟩ => exact (h.lhs1 _ _).trans hk)
  have er : D.rhsIdx (ix2 p c) ((contrEquiv1 D K h.rank h.size).symm k) = ix2 c k := funext fun a => Fin.ext (by
    match a with
    | ⟨0, _⟩ => exact h.rhs0 _ _
    | ⟨1, _⟩ => exact (h.rhs1 _ _).trans hk)
  rw [el, er]

/-- A `tpu.matmul` of such dimension numbers into the zero accumulator, at the ideal values, read at `(p, c)`. -/
theorem Rows.matmul_zero_apply (h : Rows D) (prec : Option ContractPrecision) {φ₁ φ₂ : FTy}
    (l : FVec Ideal ⟨2, ![A, K]⟩ φ₁) (r : FVec Ideal ⟨2, ![B, K]⟩ φ₂) (p : Fin A) (c : Fin B) :
    FloatOps.matmul D prec l r (constant ⟨2, ![A, B]⟩ .f32 0x00000000#32) (ix2 p c) = ∑ k : Fin K, l (ix2 p k) * r (ix2 c k) :=
  (Ideal.matmul_constant_zero_apply D prec l r (ix2 p c)).trans (h.sum_eq l r p c)

end Cert.LibRowsDot

end
-- ==== Proof.LibRowLayout.lean ====
/-
  Two layout facts about one-row arrays, each read at an entry given by its coordinates: a one-row array `[1, b]`
  spread over the rows of an `[a, b]` array, and a vector `[b]` viewed as a one-row array `[1, b]`.  They hold for
  any extents and for entries of any type.  (The companions for one-column arrays are the keepdims facts.)
-/
import Idealize.ShloMosaic.Lib.Pipeline.Value
import Idealize.ShloMosaic.Lib.ValueIdx

noncomputable section

namespace Cert.LibRowLayout

open Idealize.ShloMosaic Idealize.ShloMosaic.ValueIdx

/-- A `[1, b]` row spread over `a` rows reads, at `(i, j)`, the row's entry `j`. -/
theorem broadcastTo_1b_ab_apply {α : Type} {a b : ℕ} (v : (⟨2, ![1, b]⟩ : Shape).Idx → α)
    (h : (⟨2, ![1, b]⟩ : Shape).Broadcasts ⟨2, ![a, b]⟩) (i : Fin a) (j : Fin b) :
    broadcastTo ⟨2, ![a, b]⟩ v h (ix2 i j) = v (ix2 (0 : Fin 1) j) := by
  refine broadcastTo_apply v h (ix2 i j) (ix2 (0 : Fin 1) j) fun ax => ?_
  match ax with
  | ⟨0, _⟩ => rfl
  | ⟨1, _⟩ =>
    show j.val = if b = 1 then 0 else j.val
    split
    · have := j.isLt; omega
    · rfl

/-- A `[b]` vector viewed as a one-row array reads, at `(u, j)`, the vector's entry `j`: both sit at row-major position `j`. -/
theorem shapeCast_b_1b_apply {α : Type} {b : ℕ} (x : (⟨1, ![b]⟩ : Shape).Idx → α) (h : (⟨1, ![b]⟩ : Shape).ShapeCasts ⟨2, ![1, b]⟩)
    (u : Fin 1) (j : Fin b) : shapeCast ⟨2, ![1, b]⟩ x h (ix2 u j) = x (ix1 j) :=
  shapeCast_apply x h _ _ (by
    have hu : u.val = 0 := by omega
    rw [Shape.rowMajor_val_two, Shape.rowMajor_val_one]
    show j.val = u.val * b + j.val
    rw [hu, Nat.zero_mul, Nat.zero_add])

end Cert.LibRowLayout

end
-- ==== Proof.KernelEntry.lean ====
/-
  What the kernel body stores, at one entry of its block.

  The body loads a block of 2048 token rows, both weight matrices whole and the two biases as one-row arrays.  Its first
  product contracts the tokens' 768 features against the SECOND axis of the [3072, 768] weight matrix, so hidden unit f of
  token p is the row-against-row sum Σ_d x (p, d) · wi (f, d); the one-row bias is spread down the 2048 rows and added,
  and the maximum with the zero splat is taken.  The second product contracts the 3072 hidden units against the second
  axis of the [768, 3072] weight matrix, and the second bias row is spread and added.  Changes of float format are the
  identity on the extended reals.  So the stored entry (p, q) is output feature q of token p as `Ffn.out` defines it.
-/
import proofs.«129866_g67216238182688_cont_9to1_m_788_14_alg».proof.Proof.Gen.KernelIdeal.Skeleton
import proofs.«129866_g67216238182688_cont_9to1_m_788_14_alg».proof.Proof.Spec
import proofs.«129866_g67216238182688_cont_9to1_m_788_14_alg».proof.Proof.LibRowsDot
import proofs.«129866_g67216238182688_cont_9to1_m_788_14_alg».proof.Proof.LibRowLayout
import Idealize.ShloMosaic.Lib.Pipeline.Value
import Idealize.ShloMosaic.Lib.ValueIdx

noncomputable section

namespace Cert.KernelIdeal.Entry

open Cert.KernelIdeal Cert.KernelIdeal.Gen Cert.KernelIdeal.Facts₀ Idealize.ShloMosaic Idealize.ShloMosaic.ValueIdx

/-- The first product's dimension numbers: rows of [2048, 768] against rows of [3072, 768]. -/
theorem rows_hidden : Cert.LibRowsDot.Rows dot_S2048x768_S3072x768_S2048x3072_1_1_0_0_n_n := ⟨rfl, rfl, rfl, rfl, rfl, rfl⟩

/-- The second product's: rows of [2048, 3072] against rows of [768, 3072]. -/
theorem rows_out : Cert.LibRowsDot.Rows dot_S2048x3072_S768x3072_S2048x768_1_1_0_0_n_n := ⟨rfl, rfl, rfl, rfl, rfl, rfl⟩

/-- Hidden unit f of the block's token p, as the body computes it before the second product: the row-against-row sum,
    plus the spread bias row, clamped below at the zero splat; the changes of format and the identity cast do nothing. -/
theorem hidden_apply (x0 : Vec Ideal S2048x768 .f32) (x1 : Vec Ideal S3072x768 .f32) (x2 : Vec Ideal S1x3072 .f32)
    (hc0 : S2048x768.ShapeCasts S2048x768) (hc2 : S1x3072.ShapeCasts S1x3072) (hb2 : S1x3072.Broadcasts S2048x3072)
    (hlt : FTy.bits .bf16 < FTy.bits .f32) (p : Fin 2048) (f : Fin 3072) :
    (truncf .bf16 (maximumf (addf (matmul dot_S2048x768_S3072x768_S2048x3072_1_1_0_0_n_n none
        (truncf .bf16 (shapeCast S2048x768 x0 hc0) hlt) (truncf .bf16 x1 hlt) (constant (F := Ideal) S2048x3072 .f32 0x00000000#32))
        (broadcastTo S2048x3072 (shapeCast S1x3072 x2 hc2) hb2))
        (broadcast S2048x3072 (FloatOps.ofBits (F := Ideal) .f32 0x00000000#32))) hlt
      : FVec Ideal S2048x3072 .bf16) (ix2 p f)
    = Cert.Ffn.hid (fun d => x0 (ix2 p d)) x1 (fun f => x2 (ix2 (0 : Fin 1) f)) f := by
  rw [truncf_apply, maximumf_apply, addf_apply, broadcast_apply]
  unfold Cert.Ffn.hid
  refine congrArg₂ max (congrArg₂ (· + ·) ?_ ?_) rfl
  · refine (rows_hidden.matmul_zero_apply none _ _ p f).trans (Finset.sum_congr rfl fun d _ => ?_)
    rw [truncf_apply, truncf_apply, shapeCast_self]
  · exact (Cert.LibRowLayout.broadcastTo_1b_ab_apply _ _ p f).trans (by rw [shapeCast_self])

/-- The stored value at entry (p, q) of the block is output feature q of the block's token p. -/
theorem pay_apply (x0 : Vec Ideal S2048x768 .f32) (x1 : Vec Ideal S3072x768 .f32) (x2 : Vec Ideal S1x3072 .f32)
    (x3 : Vec Ideal S768x3072 .f32) (x4 : Vec Ideal S1x768 .f32) (p : Fin 2048) (q : Fin 768) :
    k0_pay1 (F := Ideal) x0 x1 x2 x3 x4 (ix2 p q)
      = Cert.Ffn.out (fun d => x0 (ix2 p d)) x1 (fun f => x2 (ix2 (0 : Fin 1) f)) x3 (fun e => x4 (ix2 (0 : Fin 1) e)) q := by
  unfold k0_pay1
  rw [addf_apply]
  unfold Cert.Ffn.out
  refine congrArg₂ (· + ·) ?_ ?_
  · refine (rows_out.matmul_zero_apply none _ _ p q).trans (Finset.sum_congr rfl fun f _ => ?_)
    exact congrArg₂ (· * ·) (hidden_apply x0 x1 x2 _ _ _ _ p f) rfl
  · exact (Cert.LibRowLayout.broadcastTo_1b_ab_apply _ _ p q).trans (by rw [shapeCast_self])

end Cert.KernelIdeal.Entry

end
-- ==== Proof.Blocks.lean ====
/-
  From the four blocks to the whole [8192, 768] array.

  Grid point t handles token rows 2048·t … 2048·t + 2047: its token block and its output block both sit at block index
  (t, 0), while both weight matrices and both bias rows are single blocks at index (0, 0), the same at every point.  So
  entry (p, q) of the block that point t writes back is output feature q of token 2048·t + p of the layer over the
  arrays as the region finds them, i.e. the block is the restriction of `Ffn.G2` of those arrays.  The four blocks tile
  the 8192 rows (row r lies in block r / 2048), so after the run the output array is `Ffn.G2` of the entry arrays.
-/
import proofs.«129866_g67216238182688_cont_9to1_m_788_14_alg».proof.Proof.Gen.KernelIdeal.Frame
import proofs.«129866_g67216238182688_cont_9to1_m_788_14_alg».proof.Proof.KernelEntry
import Idealize.ShloMosaic.Lib.Pipeline.Value

set_option maxRecDepth 16384

noncomputable section

namespace Cert.KernelIdeal.Blocks

open Cert.KernelIdeal Cert.KernelIdeal.Gen Idealize.ShloMosaic Idealize.ShloMosaic.TcCoe Idealize.ShloMosaic.ValueIdx
open Idealize.SL.Sem
open Idealize.ShloMosaic.Pipeline (Dat Cfg Window)

variable (m : (ℓ : Loc nD τ sig) → Buf (Elt Ideal) ℓ)

theorem off_zero : (![0, 0] : Fin 2 → Nat) = fun _ => 0 := funext fun a => by fin_cases a <;> rfl

/-- The printed index maps over the grid: the token window moves with the output window along the rows, every other
    window stays at block (0, 0), and the output's row-block index is below 4. -/
theorem idx_facts : ∀ t : Fin cfg0.N,
    win0_0.index t (0 : Fin 2) = win0_5.index t (0 : Fin 2) ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) ≤ 3 ∧ win0_5.index t (1 : Fin 2) = 0 :=
  (by decide +kernel : ∀ t : Fin grid0.N, _)

/-- Every row block is some point's. -/
theorem idx_onto : ∀ q0 : Fin 4, ∃ t : Fin cfg0.N, win0_5.index t = ![q0.val, 0] :=
  (by decide +kernel : ∀ q0 : Fin 4, ∃ t : Fin grid0.N, win0_5.index t = ![q0.val, 0])

/-- The first row of point `t`'s block is a row of the array. -/
theorem row_lt (t : Fin cfg0.N) (p : Fin 2048) : win0_5.index t (0 : Fin 2) * 2048 + p.val < 8192 := by
  have h := (idx_facts t).2.2.2.2.2.2.2.2.2.2.1
  have hp := p.isLt
  omega

/-- Row `p` of the token block at point `t` is row `2048·t + p` of the token matrix. -/
theorem tok_blk (c : Dev nD) (t : Fin cfg0.N) (p : Fin 2048) (d : Fin 768) :
    iblk m c 0 t (ix2 p d)
      = V m c main_v0 (ix2 (n0 := 8192) (n1 := 768) ⟨win0_5.index t (0 : Fin 2) * 2048 + p.val, row_lt t p⟩ d) := by
  obtain ⟨e00, e01, -⟩ := idx_facts t
  show V m c main_v0 (((cfg0.win 0).blk t).view.emb (ix2 p d)) = _
  refine congrArg (V m c main_v0) ?_
  funext a; apply Fin.ext
  match a with
  | ⟨0, _⟩ => show win0_0.index t (0 : Fin 2) * 2048 + 1 * p.val = win0_5.index t (0 : Fin 2) * 2048 + p.val; omega
  | ⟨1, _⟩ => show win0_0.index t (1 : Fin 2) * 768 + 1 * d.val = d.val; omega

/-- The first weight matrix is one block: the whole array, at every point. -/
theorem wi_blk (c : Dev nD) (t : Fin cfg0.N) : (iblk m c 1 t : S3072x768.Idx → EReal) = V m c main_arg1 := by
  obtain ⟨-, -, e10, e11, -⟩ := idx_facts t
  funext y
  show V m c main_arg1 (((cfg0.win 1).blk t).view.emb y) = V m c main_arg1 y
  refine congrArg (V m c main_arg1) ?_
  funext a; apply Fin.ext
  match a with
  | ⟨0, _⟩ => show win0_1.index t (0 : Fin 2) * 3072 + 1 * (y 0).val = (y 0).val; omega
  | ⟨1, _⟩ => show win0_1.index t (1 : Fin 2) * 768 + 1 * (y 1).val = (y 1).val; omega

/-- So is the first bias row, -/
theorem bi_blk (c : Dev nD) (t : Fin cfg0.N) : (iblk m c 2 t : S1x3072.Idx → EReal) = V m c main_v1 := by
  obtain ⟨-, -, -, -, e20, e21, -⟩ := idx_facts t
  funext y
  show V m c main_v1 (((cfg0.win 2).blk t).view.emb y) = V m c main_v1 y
  refine congrArg (V m c main_v1) ?_
  funext a; apply Fin.ext
  match a with
  | ⟨0, _⟩ => show win0_2.index t (0 : Fin 2) * 1 + 1 * (y 0).val = (y 0).val; omega
  | ⟨1, _⟩ => show win0_2.index t (1 : Fin 2) * 3072 + 1 * (y 1).val = (y 1).val; omega

/-- the second weight matrix, -/
theorem wo_blk (c : Dev nD) (t : Fin cfg0.N) : (iblk m c 3 t : S768x3072.Idx → EReal) = V m c main_arg3 := by
  obtain ⟨-, -, -, -, -, -, e30, e31, -⟩ := idx_facts t
  funext y
  show V m c main_arg3 (((cfg0.win 3).blk t).view.emb y) = V m c main_arg3 y
  refine congrArg (V m c main_arg3) ?_
  funext a; apply Fin.ext
  match a with
  | ⟨0, _⟩ => show win0_3.index t (0 : Fin 2) * 768 + 1 * (y 0).val = (y 0).val; omega
  | ⟨1, _⟩ => show win0_3.index t (1 : Fin 2) * 3072 + 1 * (y 1).val = (y 1).val; omega

/-- and the second bias row. -/
theorem bo_blk (c : Dev nD) (t : Fin cfg0.N) : (iblk m c 4 t : S1x768.Idx → EReal) = V m c main_v2 := by
  obtain ⟨-, -, -, -, -, -, -, -, e40, e41, -⟩ := idx_facts t
  funext y
  show V m c main_v2 (((cfg0.win 4).blk t).view.emb y) = V m c main_v2 y
  refine congrArg (V m c main_v2) ?_
  funext a; apply Fin.ext
  match a with
  | ⟨0, _⟩ => show win0_4.index t (0 : Fin 2) * 1 + 1 * (y 0).val = (y 0).val; omega
  | ⟨1, _⟩ => show win0_4.index t (1 : Fin 2) * 768 + 1 * (y 1).val = (y 1).val; omega

/-- Entry (p, q) of the output block at point `t` is entry (2048·t + p, q) of the output array. -/
theorem out_emb (t : Fin cfg0.N) (p : Fin 2048) (q : Fin 768) :
    ((cfg0.win 5).blk t).view.emb (ix2 p q)
      = ix2 (n0 := 8192) (n1 := 768) ⟨win0_5.index t (0 : Fin 2) * 2048 + p.val, row_lt t p⟩ q := by
  obtain ⟨-, -, -, -, -, -, -, -, -, -, e50, e51⟩ := idx_facts t
  funext a; apply Fin.ext
  match a with
  | ⟨0, _⟩ => show win0_5.index t (0 : Fin 2) * 2048 + 1 * p.val = win0_5.index t (0 : Fin 2) * 2048 + p.val; omega
  | ⟨1, _⟩ => show win0_5.index t (1 : Fin 2) * 768 + 1 * q.val = q.val; omega

/-- WHAT POINT `t` WRITES BACK is block `t` of the layer over the arrays as the region finds them. -/
theorem flushed_eq (c : Dev nD) (t : Fin cfg0.N) :
    (dats m 0 c).flushed 5 t = ((cfg0.win 5).blk t).view.read (Elt Ideal)
      (Cert.Ffn.G2 (V m c main_v0) (V m c main_arg1) (V m c main_v1) (V m c main_arg3) (V m c main_v2)) := by
  show (cfg0.win 5).cut (grid0.coords t) ((dats m 0 c).after 5 t) = _
  rw [after0_5]
  unfold out0_5
  rw [View.canon_unit_zero off_zero]
  simp only [View.ld_unit_zero (S := S2048x768) off_zero, View.ld_unit_zero (S := S3072x768) off_zero,
    View.ld_unit_zero (S := S1x3072) off_zero, View.ld_unit_zero (S := S768x3072) off_zero,
    View.ld_unit_zero (S := S1x768) off_zero]
  funext j
  obtain ⟨p, q, rfl⟩ : ∃ (p : Fin 2048) (q : Fin 768), j = ix2 p q := ⟨j 0, j 1, eq_ix2 j⟩
  show k0_pay1 (iblk m c 0 t) (iblk m c 1 t) (iblk m c 2 t) (iblk m c 3 t) (iblk m c 4 t) (ix2 p q)
    = Cert.Ffn.G2 (V m c main_v0) (V m c main_arg1) (V m c main_v1) (V m c main_arg3) (V m c main_v2)
        (((cfg0.win 5).blk t).view.emb (ix2 p q))
  refine (Cert.KernelIdeal.Entry.pay_apply _ _ _ _ _ p q).trans ?_
  rw [out_emb, wi_blk, bi_blk, wo_blk, bo_blk]
  unfold Cert.Ffn.G2
  simp only [tok_blk]

/-- An index of the array is in point `t`'s block iff each coordinate is in the block's range on its axis. -/
theorem mem_blk (t : Fin cfg0.N) (i : S8192x768.Idx) :
    i ∈ ((cfg0.win 5).blk t).view.set ↔ ∀ a : Fin 2, win0_5.index t a * S2048x768.size a ≤ (i a).val
      ∧ (i a).val < win0_5.index t a * S2048x768.size a + S2048x768.size a := by
  show i ∈ ((View.whole main_v3).slice (win0_5.rect t)).set ↔ _
  rw [View.set_slice_whole, Rect.mem_set_unit]
  exact Iff.rfl

/-- The four blocks tile the array: row r lies in the block of point r / 2048, which is written back. -/
theorem cover (i : S8192x768.Idx) :
    ∃ t : Fin cfg0.N, (cfg0.win 5).flush t = true ∧ i ∈ ((cfg0.win 5).blk t).view.set := by
  have hi0 : (i 0).val < 8192 := (i 0).isLt
  have hi1 : (i 1).val < 768 := (i 1).isLt
  obtain ⟨t, ht⟩ := idx_onto ⟨(i 0).val / 2048, by omega⟩
  have q0 : win0_5.index t (0 : Fin 2) = (i 0).val / 2048 := congrFun ht 0
  have q1 : win0_5.index t (1 : Fin 2) = 0 := congrFun ht 1
  refine ⟨t, flush0_5 t, ?_⟩
  rw [mem_blk]
  intro a
  match a with
  | ⟨0, _⟩ =>
    show win0_5.index t (0 : Fin 2) * 2048 ≤ (i 0).val ∧ (i 0).val < win0_5.index t (0 : Fin 2) * 2048 + 2048
    omega
  | ⟨1, _⟩ =>
    show win0_5.index t (1 : Fin 2) * 768 ≤ (i 1).val ∧ (i 1).val < win0_5.index t (1 : Fin 2) * 768 + 768
    omega

/-- THE OUTPUT ARRAY after the run is the layer over the arrays as the region finds them. -/
theorem final (c : Dev nD) :
    (dats m 0 c).arrAt 5 cfg0.N
      = Cert.Ffn.G2 (V m c main_v0) (V m c main_arg1) (V m c main_v1) (V m c main_arg3) (V m c main_v2) :=
  (dats m 0 c).arrAt_eq_of_cover 5 _ (fun t _ => flushed_eq m c t) cover

end Cert.KernelIdeal.Blocks

end
-- ==== Proof.LibFlatten3.lean ====
/-
  Layout facts met when a three-axis array `[a, b, c]` is handled as a matrix of `a · b` rows: the cast that
  flattens its two leading axes into one (row `i · b + j` is the old `(i, j)`) and the cast back; one `[b, c]` slab
  `[1, b, c]` spread along a new leading axis to `[a, b, c]`; and one vector `[c]` viewed as `[1, 1, c]` and spread
  over both leading axes to `[a, b, c]`. Each is read at an entry given by its coordinates. They hold for any extents
  and for entries of any type.
-/
import Idealize.ShloMosaic.Lib.Pipeline.Value
import Idealize.ShloMosaic.Lib.ValueIdx

noncomputable section

namespace Cert.LibFlatten3

open Idealize.ShloMosaic Idealize.ShloMosaic.ValueIdx

variable {α : Type}

/-- An `[a, b, c]` array cast to `[m, c]` (with `m = a · b`) reads, at `(ρ, k)` with `ρ = i · b + j`, the operand at
    `(i, j, k)`: the same row-major position. -/
theorem shapeCast_abc_mc_apply {a b c m : ℕ} (x : (⟨3, ![a, b, c]⟩ : Shape).Idx → α)
    (h : (⟨3, ![a, b, c]⟩ : Shape).ShapeCasts ⟨2, ![m, c]⟩) (i : Fin a) (j : Fin b) (k : Fin c) (ρ : Fin m)
    (hρ : ρ.val = i.val * b + j.val) :
    shapeCast ⟨2, ![m, c]⟩ x h (ix2 ρ k) = x (ix3 i j k) :=
  shapeCast_apply x h _ _ (by
    rw [Shape.rowMajor_val_two, Shape.rowMajor_val_three]
    show (i.val * b + j.val) * c + k.val = ρ.val * c + k.val
    rw [hρ])

/-- An `[m, c]` array (with `m = a · b`) cast to `[a, b, c]` reads, at `(i, j, k)`, the operand at row `ρ = i · b + j`,
    column `k`. -/
theorem shapeCast_mc_abc_apply {a b c m : ℕ} (x : (⟨2, ![m, c]⟩ : Shape).Idx → α)
    (h : (⟨2, ![m, c]⟩ : Shape).ShapeCasts ⟨3, ![a, b, c]⟩) (i : Fin a) (j : Fin b) (k : Fin c) (ρ : Fin m)
    (hρ : ρ.val = i.val * b + j.val) :
    shapeCast ⟨3, ![a, b, c]⟩ x h (ix3 i j k) = x (ix2 ρ k) :=
  shapeCast_apply x h _ _ (by
    rw [Shape.rowMajor_val_two, Shape.rowMajor_val_three]
    show ρ.val * c + k.val = (i.val * b + j.val) * c + k.val
    rw [hρ])

/-- A `[1, b, c]` array spread to `[a, b, c]` reads, at `(i, j, k)`, the operand at `(0, j, k)`: the same for every `i`. -/
theorem broadcastTo_1bc_abc_apply {a b c : ℕ} (v : (⟨3, ![1, b, c]⟩ : Shape).Idx → α)
    (h : (⟨3, ![1, b, c]⟩ : Shape).Broadcasts ⟨3, ![a, b, c]⟩) (i : Fin a) (j : Fin b) (k : Fin c) :
    broadcastTo ⟨3, ![a, b, c]⟩ v h (ix3 i j k) = v (ix3 (0 : Fin 1) j k) := by
  refine broadcastTo_apply v h (ix3 i j k) (ix3 (0 : Fin 1) j k) fun ax => ?_
  match ax with
  | ⟨0, _⟩ => rfl
  | ⟨1, _⟩ =>
    show j.val = if b = 1 then 0 else j.val
    split
    · have := j.isLt; omega
    · rfl
  | ⟨2, _⟩ =>
    show k.val = if c = 1 then 0 else k.val
    split
    · have := k.isLt; omega
    · rfl

/-- A `[c]` vector cast to `[1, 1, c]` reads, at `(u, v, k)`, the operand at `k`. -/
theorem shapeCast_c_11c_apply {c : ℕ} (x : (⟨1, ![c]⟩ : Shape).Idx → α)
    (h : (⟨1, ![c]⟩ : Shape).ShapeCasts ⟨3, ![1, 1, c]⟩) (u v : Fin 1) (k : Fin c) :
    shapeCast ⟨3, ![1, 1, c]⟩ x h (ix3 u v k) = x (ix1 k) :=
  shapeCast_apply x h _ _ (by
    have hu : u.val = 0 := by omega
    have hv : v.val = 0 := by omega
    rw [Shape.rowMajor_val_one, Shape.rowMajor_val_three]
    show k.val = (u.val * 1 + v.val) * c + k.val
    rw [hu, hv]
    omega)

/-- A `[1, 1, c]` array spread to `[a, b, c]` reads, at `(i, j, k)`, the operand's entry `k`: the same for every `(i, j)`. -/
theorem broadcastTo_11c_abc_apply {a b c : ℕ} (v : (⟨3, ![1, 1, c]⟩ : Shape).Idx → α)
    (h : (⟨3, ![1, 1, c]⟩ : Shape).Broadcasts ⟨3, ![a, b, c]⟩) (i : Fin a) (j : Fin b) (k : Fin c) :
    broadcastTo ⟨3, ![a, b, c]⟩ v h (ix3 i j k) = v (ix3 (0 : Fin 1) (0 : Fin 1) k) := by
  refine broadcastTo_apply v h (ix3 i j k) (ix3 (0 : Fin 1) (0 : Fin 1) k) fun ax => ?_
  match ax with
  | ⟨0, _⟩ => rfl
  | ⟨1, _⟩ => rfl
  | ⟨2, _⟩ =>
    show k.val = if c = 1 then 0 else k.val
    split
    · have := k.isLt; omega
    · rfl

end Cert.LibFlatten3

end
-- ==== Proof.KernelRun.lean ====
/-
  The kernel program's result as the layer of its arguments.

  Before the region the program flattens the [4, 2048, 768] token array into an [8192, 768] matrix (token (b, s) becomes
  row 2048·b + s) and views each bias vector as a one-row array; after the region it casts the [8192, 768] output back to
  [4, 2048, 768].  With the output array at `Ffn.G2` of the arrays the region finds, entry (b, s, e) of the result is
  output feature e of row 2048·b + s, whose features are those of token (b, s): `Ffn.G` of the arguments.
-/
import proofs.«129866_g67216238182688_cont_9to1_m_788_14_alg».proof.Proof.Blocks
import proofs.«129866_g67216238182688_cont_9to1_m_788_14_alg».proof.Proof.LibFlatten3
import proofs.«129866_g67216238182688_cont_9to1_m_788_14_alg».proof.Proof.LibRowLayout
import Idealize.ShloMosaic.Lib.StableHlo.Run

set_option maxRecDepth 16384

noncomputable section

namespace Cert.KernelIdeal.RunValue

open Cert.KernelIdeal Cert.KernelIdeal.Gen Idealize.ShloMosaic Idealize.ShloMosaic.TcCoe
open Idealize.ShloMosaic.ValueIdx Idealize.ShloMosaic.StableHlo Idealize.SL.Sem

variable (m : (ℓ : Loc nD τ sig) → Buf (Elt Ideal) ℓ) (ρ : Dev nD → PrngReg)

/-- The token matrix the region finds is the token array flattened. -/
theorem V_v0 (c : Dev nD) : (V m c main_v0 : S8192x768.Idx → EReal)
    = shapeCast S8192x768 (m ((c : Thread nD τ).loc main_arg0)) Facts₀.shapeCasts_S4x2048x768_S8192x768 := by
  show StableHlo.after hostOps0 (fun b => m (c, b)) (Proc.devRef .tc main_v0) = _
  after_results
  rfl

/-- The first bias row it finds is the first bias vector as one row. -/
theorem V_v1 (c : Dev nD) : (V m c main_v1 : S1x3072.Idx → EReal)
    = shapeCast S1x3072 (m ((c : Thread nD τ).loc main_arg2)) Facts₀.shapeCasts_S3072_S1x3072 := by
  show StableHlo.after hostOps0 (fun b => m (c, b)) (Proc.devRef .tc main_v1) = _
  after_results
  rfl

/-- The second bias row it finds is the second bias vector as one row. -/
theorem V_v2 (c : Dev nD) : (V m c main_v2 : S1x768.Idx → EReal)
    = shapeCast S1x768 (m ((c : Thread nD τ).loc main_arg4)) Facts₀.shapeCasts_S768_S1x768 := by
  show StableHlo.after hostOps0 (fun b => m (c, b)) (Proc.devRef .tc main_v2) = _
  after_results
  rfl

/-- The program's result is the output array cast back to [4, 2048, 768]. -/
theorem tail_eq (c : Dev nD) : Pipeline.afterTail₀ cfgs (dats m) 0 (V0 m) [hostOps1] c main_v4
    = shapeCast S4x2048x768 ((dats m 0 c).arrAt 5 cfg0.N) Facts₀.shapeCasts_S8192x768_S4x2048x768 := by
  unfold Pipeline.afterTail₀
  show StableHlo.after hostOps1 _ (Proc.devRef .tc main_v4) = _
  after_results
  have hw : Pipeline.withArrays (cfgs 0).spec c (V0 m c) (fun w => (dats m 0 c).arrAt w (cfgs 0).N)
      (Proc.devRef .tc main_v3) = (dats m 0 c).arrAt 5 cfg0.N :=
    Pipeline.withArrays_arr spec0 launch0.win.arr_inj c (V0 m c) _ 5
  rw [hw]
  rfl

/-- Flattening the tokens, viewing the biases as rows, applying the layer over the matrix and casting back is the layer
    over the array: row 2048·b + s of the flattened tokens is token (b, s), and entry (0, f) of a bias row is entry f
    of the bias vector. -/
theorem layout_eq (x0 : S4x2048x768.Idx → EReal) (x1 : S3072x768.Idx → EReal) (x2 : S3072.Idx → EReal)
    (x3 : S768x3072.Idx → EReal) (x4 : S768.Idx → EReal)
    (h0 : S4x2048x768.ShapeCasts S8192x768) (h2 : S3072.ShapeCasts S1x3072) (h4 : S768.ShapeCasts S1x768)
    (h5 : S8192x768.ShapeCasts S4x2048x768) :
    shapeCast S4x2048x768 (Cert.Ffn.G2 (shapeCast S8192x768 x0 h0) x1 (shapeCast S1x3072 x2 h2) x3 (shapeCast S1x768 x4 h4)) h5
      = Cert.Ffn.G x0 x1 x2 x3 x4 := by
  funext i
  obtain ⟨b, s, e, rfl⟩ : ∃ (b : Fin 4) (s : Fin 2048) (e : Fin 768), i = ix3 b s e := ⟨i 0, i 1, i 2, eq_ix3 i⟩
  have hr : b.val * 2048 + s.val < 8192 := by have := b.isLt; have := s.isLt; omega
  have t0 : (fun d : Fin 768 => shapeCast S8192x768 x0 h0 (ix2 (n0 := 8192) (n1 := 768) ⟨b.val * 2048 + s.val, hr⟩ d))
      = fun d => x0 (ix3 b s d) :=
    funext fun d => Cert.LibFlatten3.shapeCast_abc_mc_apply x0 h0 b s d ⟨b.val * 2048 + s.val, hr⟩ rfl
  have t2 : (fun f : Fin 3072 => shapeCast S1x3072 x2 h2 (ix2 (0 : Fin 1) f)) = fun f => x2 (ix1 f) :=
    funext fun f => Cert.LibRowLayout.shapeCast_b_1b_apply x2 h2 0 f
  have t4 : (fun e' : Fin 768 => shapeCast S1x768 x4 h4 (ix2 (0 : Fin 1) e')) = fun e' => x4 (ix1 e') :=
    funext fun e' => Cert.LibRowLayout.shapeCast_b_1b_apply x4 h4 0 e'
  rw [Cert.LibFlatten3.shapeCast_mc_abc_apply _ h5 b s e ⟨b.val * 2048 + s.val, hr⟩ rfl]
  show Cert.Ffn.out (fun d => shapeCast S8192x768 x0 h0 (ix2 (n0 := 8192) (n1 := 768) ⟨b.val * 2048 + s.val, hr⟩ d)) x1
      (fun f => shapeCast S1x3072 x2 h2 (ix2 (0 : Fin 1) f)) x3 (fun e' => shapeCast S1x768 x4 h4 (ix2 (0 : Fin 1) e')) e
    = Cert.Ffn.out (fun d => x0 (ix3 b s d)) x1 (fun f => x2 (ix1 f)) x3 (fun e' => x4 (ix1 e')) e
  rw [t0, t2, t4]

/-- The program's result is the layer of its arguments as launched. -/
theorem result_eq (c : Dev nD) : Pipeline.afterTail₀ cfgs (dats m) 0 (V0 m) [hostOps1] c main_v4
    = Cert.Ffn.G (m ((c : Thread nD τ).loc main_arg0)) (m ((c : Thread nD τ).loc main_arg1))
        (m ((c : Thread nD τ).loc main_arg2)) (m ((c : Thread nD τ).loc main_arg3)) (m ((c : Thread nD τ).loc main_arg4)) := by
  rw [tail_eq, Cert.KernelIdeal.Blocks.final, V_v0, V_v1, V_v2, V_main_arg1, V_main_arg3]
  exact layout_eq _ _ _ _ _ _ _ _ _

/-- Every weakly fair execution of the kernel program terminates with its result at the layer of its arguments and the
    arguments unchanged: the frame run, its post read at the result (the tail's reshape of the output array) and at the
    arguments. -/
theorem run : θ_run defs (onTc (τ := τ) (main (F := Ideal))) ⟨m, fun _ => 0, ρ⟩ (fun r => ∀ c : Dev nD,
      r.2.mem ((c.tc : Thread nD τ).loc main_v4)
        = Cert.Ffn.G (m ((c.tc : Thread nD τ).loc main_arg0)) (m ((c.tc : Thread nD τ).loc main_arg1))
            (m ((c.tc : Thread nD τ).loc main_arg2)) (m ((c.tc : Thread nD τ).loc main_arg3)) (m ((c.tc : Thread nD τ).loc main_arg4))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun _ h c =>
    ⟨((h c).2 main_v4 (Pipeline.mem_restRefs_of main_v4 (by decide) (by decide))).trans (result_eq m c),
      ((h c).2 main_arg0 (Pipeline.mem_restRefs_of main_arg0 (by decide) (by decide))).trans (W_main_arg0 m (dats m) c),
      ((h c).1 1).trans (((dats m 0 c).arrAt_in 1 rfl _).trans ((A_eq m c 1).trans (V_main_arg1 m c))),
      ((h c).2 main_arg2 (Pipeline.mem_restRefs_of main_arg2 (by decide) (by decide))).trans (W_main_arg2 m (dats m) c),
      ((h c).1 3).trans (((dats m 0 c).arrAt_in 3 rfl _).trans ((A_eq m c 3).trans (V_main_arg3 m c))),
      ((h c).2 main_arg4 (Pipeline.mem_restRefs_of main_arg4 (by decide) (by decide))).trans (W_main_arg4 m (dats m) c)⟩)
    (run_main m ρ)

end Cert.KernelIdeal.RunValue

end
-- ==== Proof.lean ====
/-
  A feed-forward layer, out = max(x · wiᵀ + bi, 0) · woᵀ + bo over 8192 tokens of 768 features with 3072 hidden units,
  computed by a kernel over four blocks of 2048 token rows against the plain two-contraction reference.

  Over the extended reals a change of float format is the identity, a matrix product into a zero accumulator is the plain
  sum over the contracted axis, and both programs contract the same axes in the same order of factors.  So at every
  (batch, position, feature) both results are the same expression `Ffn.out` (Proof/Spec.lean) of the token's feature row,
  the two weight matrices and the two biases; what differs is layout only: the kernel program flattens the tokens to an
  [8192, 768] matrix, cuts it into blocks, views each bias as a one-row array spread down the block's rows, and casts the
  output back; the reference spreads each bias over a [4, 2048, ·] array.  No law of arithmetic is used beyond reading
  sums at an index, so the finiteness of the inputs is never opened.

  Proof/RefSide.lean reads the reference's result one operation at a time; Proof/KernelEntry.lean reads what the kernel
  body stores at one entry; Proof/Blocks.lean assembles the four written-back blocks into the output array;
  Proof/KernelRun.lean reads the reshapes before and after the region and states the kernel program's run.  The three
  frames are the kernel programs' generated frame runs and the reference's run with its result dropped; the idealization
  rewrote no operation, so `preserves` is `True`.
-/
import proofs.«129866_g67216238182688_cont_9to1_m_788_14_alg».proof.Defs
import proofs.«129866_g67216238182688_cont_9to1_m_788_14_alg».proof.Proof.Gen.Kernel
import proofs.«129866_g67216238182688_cont_9to1_m_788_14_alg».proof.Proof.Gen.Kernel.Skeleton
import proofs.«129866_g67216238182688_cont_9to1_m_788_14_alg».proof.Proof.Gen.Kernel.Launch
import proofs.«129866_g67216238182688_cont_9to1_m_788_14_alg».proof.Proof.Gen.Kernel.Points
import proofs.«129866_g67216238182688_cont_9to1_m_788_14_alg».proof.Proof.Gen.Kernel.Frame
import proofs.«129866_g67216238182688_cont_9to1_m_788_14_alg».proof.Proof.Gen.KernelIdeal
import proofs.«129866_g67216238182688_cont_9to1_m_788_14_alg».proof.Proof.Gen.KernelIdeal.Skeleton
import proofs.«129866_g67216238182688_cont_9to1_m_788_14_alg».proof.Proof.Gen.KernelIdeal.Launch
import proofs.«129866_g67216238182688_cont_9to1_m_788_14_alg».proof.Proof.Gen.KernelIdeal.Points
import proofs.«129866_g67216238182688_cont_9to1_m_788_14_alg».proof.Proof.Gen.KernelIdeal.Frame
import proofs.«129866_g67216238182688_cont_9to1_m_788_14_alg».proof.Proof.Gen.ReferenceIdeal
import proofs.«129866_g67216238182688_cont_9to1_m_788_14_alg».proof.Proof.Gen.ReferenceIdeal.Run
import proofs.«129866_g67216238182688_cont_9to1_m_788_14_alg».proof.Proof.Gen.ReferenceIdeal.Read
import proofs.«129866_g67216238182688_cont_9to1_m_788_14_alg».proof.Proof.Gen.Pre_finite_inputs
import proofs.«129866_g67216238182688_cont_9to1_m_788_14_alg».proof.Proof.RefSide
import proofs.«129866_g67216238182688_cont_9to1_m_788_14_alg».proof.Proof.KernelRun
import Idealize.ShloMosaic.Adequacy
import Idealize.ShloMosaic.Init

noncomputable section

namespace Cert.Proof

open Idealize.ShloMosaic Idealize.ShloMosaic.TcCoe Idealize.SL.Sem

/-- The word-level kernel program runs and keeps its arguments. -/
theorem frame_kernel : Cert.frame_Kernel := fun m ρ _ => Cert.Kernel.Gen.frame m ρ

/-- So does the idealized one. -/
theorem frame_kernelIdeal : Cert.frame_KernelIdeal := fun m ρ _ => Cert.KernelIdeal.Gen.frame m ρ

/-- The reference's frame is its run with the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- Both idealized programs end with the layer `Ffn.G` of the arguments: the kernel program by its run read through its
    blocks and reshapes, the reference by its run read operation by operation; the arguments agree, so the results do. -/
theorem algebraic : Cert.algebraic_KernelIdeal_ReferenceIdeal := by
  intro m ρ m' ρ' _ hagree
  refine ⟨fun c => Cert.Ffn.G (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3))
      (m ((c.tc : Thread Cert.KernelIdeal.nD Cert.KernelIdeal.τ).loc Cert.KernelIdeal.main_arg4)),
    Cert.KernelIdeal.RunValue.run m ρ, ?_⟩
  refine (θ_run Cert.ReferenceIdeal.defs _ _).mono (fun _ h c => ⟨(h c).1.trans ?_, (h c).2⟩)
    (Cert.ReferenceIdeal.Value.run (F := Ideal) m' ρ')
  rw [(hagree c).1, (hagree c).2.1, (hagree c).2.2.1, (hagree c).2.2.2.1, (hagree c).2.2.2.2]
  exact (Cert.ReferenceIdeal.Read.val_main_v8_eq _ _ _ _ _).trans (Cert.ReferenceIdeal.RefValue.result_eq _ _ _ _ _)

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, trivial, algebraic⟩

end Cert.Proof

end
